-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x1x512 : Shape := ⟨4, ![8, 200, 1, 512]⟩
abbrev S8x1x50x512 : Shape := ⟨4, ![8, 1, 50, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S8x200x1x512 : S_.BroadcastsInDim S8x200x1x512 (![] : Fin 0 → Fin S8x200x1x512.rank)
  reducesTo_S8x200x1x512_S_d0_1_2_3 : S8x200x1x512.ReducesTo [0, 1, 2, 3] S_
  h_S_ : 0 < S_.numel
  bcast_S_S8x1x50x512 : S_.BroadcastsInDim S8x1x50x512 (![] : Fin 0 → Fin S8x1x50x512.rank)
  reducesTo_S8x1x50x512_S_d0_1_2_3 : S8x1x50x512.ReducesTo [0, 1, 2, 3] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1024 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S8x200x1x512 .f32) (main_arg1 : FVec F S8x1x50x512 .f32) (main_arg2 : FVec F S512x512 .f32) (main_arg3 : FVec F S512 .f32) (main_arg4 : FVec F S512x512 .f32) (main_arg5 : FVec F S512 .f32) (main_arg6 : FVec F S512x1024 .f32) (main_arg7 : FVec F S1024 .f32) : IVec S_ 1 :=
  let main_v0 : FVec F S8x200x1x512 .f32 := Host.absf main_arg0
  let main_cst : FVec F S_ .f32 := constant S_ .f32 0x7F800000#32
  let main_v1 : FVec F S8x200x1x512 .f32 := broadcastInDim S8x200x1x512 ![] bcast_S_S8x200x1x512 main_cst
  let main_v2 : IVec S8x200x1x512 1 := cmpf .olt main_v0 main_v1
  let main_c : IVec S_ 1 := constantI S_ 1 1#1
  let main_v3 : IVec S_ 1 := (fun x v => Host.reduce IntOp.andi x v reducesTo_S8x200x1x512_S_d0_1_2_3 h_S_) main_v2 main_c
  let main_v4 : FVec F S8x1x50x512 .f32 := Host.absf main_arg1
  let main_cst_0 : FVec F S_ .f32 := constant S_ .f32 0x7F800000#32
  let main_v5 : FVec F S8x1x50x512 .f32 := broadcastInDim S8x1x50x512 ![] bcast_S_S8x1x50x512 main_cst_0
  let main_v6 : IVec S8x1x50x512 1 := cmpf .olt main_v4 main_v5
  let main_c_1 : IVec S_ 1 := constantI S_ 1 1#1
  let main_v7 : IVec S_ 1 := (fun x v => Host.reduce IntOp.andi x v reducesTo_S8x1x50x512_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x200x1x512 : Shape := ⟨4, ![8, 200, 1, 512]⟩
abbrev S8x1x50x512 : Shape := ⟨4, ![8, 1, 50, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S8x200x50x1024 : Shape := ⟨4, ![8, 200, 50, 1024]⟩
abbrev S1x40x1x512 : Shape := ⟨4, ![1, 40, 1, 512]⟩
abbrev S1x1x50x512 : Shape := ⟨4, ![1, 1, 50, 512]⟩
abbrev S1x40x50x1024 : Shape := ⟨4, ![1, 40, 50, 1024]⟩
abbrev S40x512 : Shape := ⟨2, ![40, 512]⟩
abbrev S50x512 : Shape := ⟨2, ![50, 512]⟩
abbrev S1x512 : Shape := ⟨2, ![1, 512]⟩
abbrev S40x1x512 : Shape := ⟨3, ![40, 1, 512]⟩
abbrev S1x50x512 : Shape := ⟨3, ![1, 50, 512]⟩
abbrev S40x50x512 : Shape := ⟨3, ![40, 50, 512]⟩
abbrev S2000x512 : Shape := ⟨2, ![2000, 512]⟩
abbrev S2000x1024 : Shape := ⟨2, ![2000, 1024]⟩
abbrev S1x1024 : Shape := ⟨2, ![1, 1024]⟩
abbrev S40x50x1024 : Shape := ⟨3, ![40, 50, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8x200x1x512, .f32⟩
  | .hbm, ⟨1, _⟩ => ⟨S8x1x50x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S512x512, .bf16⟩
  | .hbm, ⟨9, _⟩ => ⟨S512x512, .bf16⟩
  | .hbm, ⟨10, _⟩ => ⟨S512x1024, .bf16⟩
  | .hbm, ⟨11, _⟩ => ⟨S8x200x50x1024, .f32⟩
  | .local _ .vmem, ⟨0, _⟩ => ⟨S1x40x1x512, .f32⟩
  | .local _ .vmem, ⟨1, _⟩ => ⟨S1x40x1x512, .f32⟩
  | .local _ .vmem, ⟨2, _⟩ => ⟨S1x1x50x512, .f32⟩
  | .local _ .vmem, ⟨3, _⟩ => ⟨S1x1x50x512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512x1024, .bf16⟩
  | .local _ .vmem, ⟨9, _⟩ => ⟨S1024, .f32⟩
  | .local _ .vmem, ⟨10, _⟩ => ⟨S1x40x50x1024, .f32⟩
  | .local _ .vmem, ⟨11, _⟩ => ⟨S1x40x50x1024, .f32⟩
  | _, _ => ⟨S8x200x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x50x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x40x50x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S1x40x1x512_S1x40x1x512_0_0_0_0 : ∀ a, (![0, 0, 0, 0] : Fin 4 → Nat) a + S1x40x1x512.size a ≤ S1x40x1x512.size a
  h_S1x40x1x512 : 0 < S1x40x1x512.numel
  shapeCasts_S1x40x1x512_S40x512 : S1x40x1x512.ShapeCasts S40x512
  inb_S1x1x50x512_S1x1x50x512_0_0_0_0 : ∀ a, (![0, 0, 0, 0] : Fin 4 → Nat) a + S1x1x50x512.size a ≤ S1x1x50x512.size a
  h_S1x1x50x512 : 0 < S1x1x50x512.numel
  shapeCasts_S1x1x50x512_S50x512 : S1x1x50x512.ShapeCasts S50x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S512_S1x512 : S512.ShapeCasts S1x512
  broadcasts_S1x512_S40x512 : S1x512.Broadcasts S40x512
  broadcasts_S1x512_S50x512 : S1x512.Broadcasts S50x512
  shapeCasts_S40x512_S40x1x512 : S40x512.ShapeCasts S40x1x512
  shapeCasts_S50x512_S1x50x512 : S50x512.ShapeCasts S1x50x512
  broadcasts_S40x1x512_S40x50x512 : S40x1x512.Broadcasts S40x50x512
  broadcasts_S1x50x512_S40x50x512 : S1x50x512.Broadcasts S40x50x512
  shapeCasts_S40x50x512_S2000x512 : S40x50x512.ShapeCasts S2000x512
  shapeCasts_S1024_S1x1024 : S1024.ShapeCasts S1x1024
  broadcasts_S1x1024_S2000x1024 : S1x1024.Broadcasts S2000x1024
  shapeCasts_S2000x1024_S40x50x1024 : S2000x1024.ShapeCasts S40x50x1024
  inb_S1x40x50x1024_S1x40x50x1024_0_0_0_0 : ∀ a, (![0, 0, 0, 0] : Fin 4 → Nat) a + S1x40x50x1024.size a ≤ S1x40x50x1024.size a
  h_S1x40x50x1024 : 0 < S1x40x50x1024.numel
  shapeCasts_S1x40x50x1024_S40x50x1024 : S1x40x50x1024.ShapeCasts S40x50x1024
  shapeCasts_S40x50x1024_S1x40x50x1024 : S40x50x1024.ShapeCasts S1x40x50x1024
  dot_S40x512_S512x512_S40x512_1_0_0_1_n_n_wf : DotDims.WF S40x512 S512x512 S40x512 [1] [0] [0] [1] [] []
  dot_S50x512_S512x512_S50x512_1_0_0_1_n_n_wf : DotDims.WF S50x512 S512x512 S50x512 [1] [0] [0] [1] [] []
  dot_S2000x512_S512x1024_S2000x1024_1_0_0_1_n_n_wf : DotDims.WF S2000x512 S512x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x1x512.size a ≤ S8x200x1x512.size a
  hwx0_0 : ∀ i : grid0.Coords, EltTy.bits .f32 = 32 ∨ (Rect.block (s := S8x200x1x512) S1x40x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x50x512.size a ≤ S8x1x50x512.size a
  hwx0_1 : ∀ i : grid0.Coords, EltTy.bits .f32 = 32 ∨ (Rect.block (s := S8x1x50x512) S1x1x50x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x40x50x1024.size a ≤ S8x200x50x1024.size a
  hwx0_8 : ∀ i : grid0.Coords, EltTy.bits .f32 = 32 ∨ (Rect.block (s := S8x200x50x1024) S1x40x50x1024.size (cc0_transform_8 i) (hinb0_8 i)).WholeWords (EltTy.packing .f32)

variable [Facts₀]

def dot_S40x512_S512x512_S40x512_1_0_0_1_n_n : DotDims S40x512 S512x512 S40x512 where
  lhsContracting := [1]
  rhsContracting := [0]
  lhsNonContracting := [0]
  rhsNonContracting := [1]
  lhsBatch := []
  rhsBatch := []
  wf := dot_S40x512_S512x512_S40x512_1_0_0_1_n_n_wf
def dot_S50x512_S512x512_S50x512_1_0_0_1_n_n : DotDims S50x512 S512x512 S50x512 where
  lhsContracting := [1]
  rhsContracting := [0]
  lhsNonContracting := [0]
  rhsNonContracting := [1]
  lhsBatch := []
  rhsBatch := []
  wf := dot_S50x512_S512x512_S50x512_1_0_0_1_n_n_wf
def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf

abbrev win0_0 : Pipeline.Window sig grid0 :=
  Pipeline.Window.ofSpec (Memref.whole main_arg0) S1x40x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x50x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x40x50x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x200x1x512 : Shape := ⟨4, ![8, 200, 1, 512]⟩
abbrev S8x1x50x512 : Shape := ⟨4, ![8, 1, 50, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1x1x1x512 : Shape := ⟨4, ![1, 1, 1, 512]⟩
abbrev S8x200x50x512 : Shape := ⟨4, ![8, 200, 50, 512]⟩
abbrev S8x200x50x1024 : Shape := ⟨4, ![8, 200, 50, 1024]⟩
abbrev S1x1x1x1024 : Shape := ⟨4, ![1, 1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x200x1x512, .f32⟩
  | .hbm, ⟨1, _⟩ => ⟨S8x1x50x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S8x200x1x512, .f32⟩
  | .hbm, ⟨9, _⟩ => ⟨S1x1x1x512, .f32⟩
  | .hbm, ⟨10, _⟩ => ⟨S8x200x1x512, .f32⟩
  | .hbm, ⟨11, _⟩ => ⟨S8x200x1x512, .f32⟩
  | .hbm, ⟨12, _⟩ => ⟨S8x1x50x512, .f32⟩
  | .hbm, ⟨13, _⟩ => ⟨S1x1x1x512, .f32⟩
  | .hbm, ⟨14, _⟩ => ⟨S8x1x50x512, .f32⟩
  | .hbm, ⟨15, _⟩ => ⟨S8x1x50x512, .f32⟩
  | .hbm, ⟨16, _⟩ => ⟨S8x200x50x512, .f32⟩
  | .hbm, ⟨17, _⟩ => ⟨S8x200x50x512, .f32⟩
  | .hbm, ⟨18, _⟩ => ⟨S8x200x50x512, .f32⟩
  | .hbm, ⟨19, _⟩ => ⟨S8x200x50x512, .f32⟩
  | .hbm, ⟨20, _⟩ => ⟨S8x200x50x1024, .f32⟩
  | .hbm, ⟨21, _⟩ => ⟨S1x1x1x1024, .f32⟩
  | .hbm, ⟨22, _⟩ => ⟨S8x200x50x1024, .f32⟩
  | .hbm, ⟨23, _⟩ => ⟨S8x200x50x1024, .f32⟩
  | _, _ => ⟨S8x200x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S8x200x1x512_0_1_2_3 : S1x1x1x512.BroadcastsInDim S8x200x1x512 (![0, 1, 2, 3] : Fin 4 → Fin S8x200x1x512.rank)
  bcast_S1x1x1x512_S8x1x50x512_0_1_2_3 : S1x1x1x512.BroadcastsInDim S8x1x50x512 (![0, 1, 2, 3] : Fin 4 → Fin S8x1x50x512.rank)
  bcast_S8x200x1x512_S8x200x50x512_0_1_2_3 : S8x200x1x512.BroadcastsInDim S8x200x50x512 (![0, 1, 2, 3] : Fin 4 → Fin S8x200x50x512.rank)
  bcast_S8x1x50x512_S8x200x50x512_0_1_2_3 : S8x1x50x512.BroadcastsInDim S8x200x50x512 (![0, 1, 2, 3] : Fin 4 → Fin S8x200x50x512.rank)
  bcast_S1024_S1x1x1x1024_3 : S1024.BroadcastsInDim S1x1x1x1024 (![3] : Fin 1 → Fin S1x1x1x1024.rank)
  bcast_S1x1x1x1024_S8x200x50x1024_0_1_2_3 : S1x1x1x1024.BroadcastsInDim S8x200x50x1024 (![0, 1, 2, 3] : Fin 4 → Fin S8x200x50x1024.rank)
  dot_S8x200x1x512_S512x512_S8x200x1x512_3_0_012_1_n_n_wf : DotDims.WF S8x200x1x512 S512x512 S8x200x1x512 [3] [0] [0, 1, 2] [1] [] []
  dot_S8x1x50x512_S512x512_S8x1x50x512_3_0_012_1_n_n_wf : DotDims.WF S8x1x50x512 S512x512 S8x1x50x512 [3] [0] [0, 1, 2] [1] [] []
  dot_S8x200x50x512_S512x1024_S8x200x50x1024_3_0_012_1_n_n_wf : DotDims.WF S8x200x50x512 S512x1024 S8x200x50x1024 [3] [0] [0, 1, 2] [1] [] []

variable [Facts₀]

def dot_S8x200x1x512_S512x512_S8x200x1x512_3_0_012_1_n_n : DotDims S8x200x1x512 S512x512 S8x200x1x512 where
  lhsContracting := [3]
  rhsContracting := [0]
  lhsNonContracting := [0, 1, 2]
  rhsNonContracting := [1]
  lhsBatch := []
  rhsBatch := []
  wf := dot_S8x200x1x512_S512x512_S8x200x1x512_3_0_012_1_n_n_wf
def dot_S8x1x50x512_S512x512_S8x1x50x512_3_0_012_1_n_n : DotDims S8x1x50x512 S512x512 S8x1x50x512 where
  lhsContracting := [3]
  rhsContracting := [0]
  lhsNonContracting := [0, 1, 2]
  rhsNonContracting := [1]
  lhsBatch := []
  rhsBatch := []
  wf := dot_S8x1x50x512_S512x512_S8x1x50x512_3_0_012_1_n_n_wf
def dot_S8x200x50x512_S512x1024_S8x200x50x1024_3_0_012_1_n_n : DotDims S8x200x50x512 S512x1024 S8x200x50x1024 where
  lhsContracting := [3]
  rhsContracting := [0]
  lhsNonContracting := [0, 1, 2]
  rhsNonContracting := [1]
  lhsBatch := []
  rhsBatch := []
  wf := dot_S8x200x50x512_S512x1024_S8x200x50x1024_3_0_012_1_n_n_wf

class Facts : Prop extends Facts₀ where

variable [Facts]
-- ==== Proof.JointSpec.lean ====
/-
  The joint network as one function of its eight argument arrays.

  An encoder array `xe` of shape [B, T, 1, 512] and a predictor array `xp` of shape [B, 1, U, 512] are each projected
  to 512 hidden features by a weight matrix and a bias,

      enc b t h = Σ_e xe[b, t, 0, e] · wl[e, h] + bl[h],        prd b u h = Σ_p xp[b, 0, u, p] · wp[p, h] + bp[h],

  added over every pair (t, u), put through tanh, and projected to 1024 outputs:

      joint b t u v = Σ_h tanh (enc b t h + prd b u h) · wh[h, v] + bh[v].

  Everything is over the extended reals, with the operations' exact meanings. The extents B, T, U are parameters: the
  same definition reads a whole array or one [1, 40, 1, 512] block of it, and `joint_congr` says that the value at an
  entry only depends on the one encoder row and the one predictor row it names.
-/
import Idealize.ShloMosaic.PureOps.Ideal
import Idealize.ShloMosaic.Lib.ValueIdx

noncomputable section

open scoped BigOperators

namespace Cert.JointNet

open Idealize.ShloMosaic Idealize.ShloMosaic.ValueIdx

variable {B T U : ℕ}

/-- The encoder's projection at batch `b`, time `t`, hidden feature `h`. -/
def enc (xe : (⟨4, ![B, T, 1, 512]⟩ : Shape).Idx → EReal) (wl : (⟨2, ![512, 512]⟩ : Shape).Idx → EReal)
    (bl : (⟨1, ![512]⟩ : Shape).Idx → EReal) (b : Fin B) (t : Fin T) (h : Fin 512) : EReal :=
  (∑ e : Fin 512, xe (ix4 b t (0 : Fin 1) e) * wl (ix2 e h)) + bl (ix1 h)

/-- The predictor's projection at batch `b`, label position `u`, hidden feature `h`. -/
def prd (xp : (⟨4, ![B, 1, U, 512]⟩ : Shape).Idx → EReal) (wp : (⟨2, ![512, 512]⟩ : Shape).Idx → EReal)
    (bp : (⟨1, ![512]⟩ : Shape).Idx → EReal) (b : Fin B) (u : Fin U) (h : Fin 512) : EReal :=
  (∑ p : Fin 512, xp (ix4 b (0 : Fin 1) u p) * wp (ix2 p h)) + bp (ix1 h)

/-- The network's output at batch `b`, time `t`, label position `u`, output feature `v`. -/
def joint (xe : (⟨4, ![B, T, 1, 512]⟩ : Shape).Idx → EReal) (xp : (⟨4, ![B, 1, U, 512]⟩ : Shape).Idx → EReal)
    (wl : (⟨2, ![512, 512]⟩ : Shape).Idx → EReal) (bl : (⟨1, ![512]⟩ : Shape).Idx → EReal)
    (wp : (⟨2, ![512, 512]⟩ : Shape).Idx → EReal) (bp : (⟨1, ![512]⟩ : Shape).Idx → EReal)
    (wh : (⟨2, ![512, 1024]⟩ : Shape).Idx → EReal) (bh : (⟨1, ![1024]⟩ : Shape).Idx → EReal)
    (b : Fin B) (t : Fin T) (u : Fin U) (v : Fin 1024) : EReal :=
  (∑ h : Fin 512, Ideal.tanh (enc xe wl bl b t h + prd xp wp bp b u h) * wh (ix2 h v)) + bh (ix1 v)

/-- The output as an array of shape [B, T, U, 1024]. -/
def jointArr (xe : (⟨4, ![B, T, 1, 512]⟩ : Shape).Idx → EReal) (xp : (⟨4, ![B, 1, U, 512]⟩ : Shape).Idx → EReal)
    (wl : (⟨2, ![512, 512]⟩ : Shape).Idx → EReal) (bl : (⟨1, ![512]⟩ : Shape).Idx → EReal)
    (wp : (⟨2, ![512, 512]⟩ : Shape).Idx → EReal) (bp : (⟨1, ![512]⟩ : Shape).Idx → EReal)
    (wh : (⟨2, ![512, 1024]⟩ : Shape).Idx → EReal) (bh : (⟨1, ![1024]⟩ : Shape).Idx → EReal) :
    (⟨4, ![B, T, U, 1024]⟩ : Shape).Idx → EReal :=
  fun i => joint xe xp wl bl wp bp wh bh (i 0) (i 1) (i 2) (i 3)

/-- The output at an entry depends on the encoder array through row (b, t) only and on the predictor array through
    row (b, u) only: two pairs of arrays, of any extents, that agree on those rows give the same value. -/
theorem joint_congr {B' T' U' : ℕ}
    (xe : (⟨4, ![B, T, 1, 512]⟩ : Shape).Idx → EReal) (xp : (⟨4, ![B, 1, U, 512]⟩ : Shape).Idx → EReal)
    (xe' : (⟨4, ![B', T', 1, 512]⟩ : Shape).Idx → EReal) (xp' : (⟨4, ![B', 1, U', 512]⟩ : Shape).Idx → EReal)
    (wl : (⟨2, ![512, 512]⟩ : Shape).Idx → EReal) (bl : (⟨1, ![512]⟩ : Shape).Idx → EReal)
    (wp : (⟨2, ![512, 512]⟩ : Shape).Idx → EReal) (bp : (⟨1, ![512]⟩ : Shape).Idx → EReal)
    (wh : (⟨2, ![512, 1024]⟩ : Shape).Idx → EReal) (bh : (⟨1, ![1024]⟩ : Shape).Idx → EReal)
    (b : Fin B) (t : Fin T) (u : Fin U) (b' : Fin B') (t' : Fin T') (u' : Fin U') (v : Fin 1024)
    (he : ∀ e : Fin 512, xe (ix4 b t (0 : Fin 1) e) = xe' (ix4 b' t' (0 : Fin 1) e))
    (hp : ∀ p : Fin 512, xp (ix4 b (0 : Fin 1) u p) = xp' (ix4 b' (0 : Fin 1) u' p)) :
    joint xe xp wl bl wp bp wh bh b t u v = joint xe' xp' wl bl wp bp wh bh b' t' u' v := by
  unfold joint enc prd
  simp only [he, hp]

end Cert.JointNet

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibUnitAxes.lean ====
/-
  Unit axes added or dropped by a shape cast, read at an index given by coordinates. A reshape keeps the row-major
  position of every element, and a unit axis contributes nothing to it: a `[1, 1, a]` array cast to the vector `[a]`
  reads, at `i`, the operand at `(0, 0, i)`; an `[a, b]` array cast to `[a, 1, b]` reads, at `(i, z, j)`, the operand at
  `(i, j)`.
-/
import Idealize.ShloMosaic.Lib.Pipeline.Value
import Idealize.ShloMosaic.Lib.ValueIdx

namespace Idealize.ShloMosaic.ValueIdx

open Idealize.ShloMosaic

variable {α : Type}

/-- A `[1, 1, a]` array cast to the vector `[a]` reads, at `i`, the operand at `(0, 0, i)`: both have row-major
    position `i`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a, b]` array cast to `[a, 1, b]` (a unit axis put in the middle) reads, at `(i, z, j)`, the operand at
    `(i, j)`: the middle coordinate is `0`, so both have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_two, Shape.rowMajor_val_three]
    show i.val * b + j.val = (i.val * 1 + z.val) * b + j.val
    rw [hz, Nat.mul_one, Nat.add_zero])

end Idealize.ShloMosaic.ValueIdx
-- ==== Proof.LibJoinAxes.lean ====
/-
  Layout operations met when two projected matrices are added by broadcasting into a rank-3 array and that array is
  flattened for a matrix product, each read at an index given by coordinates.

  * A rank-4 block with two unit axes cast to a matrix: a `[1, a, 1, b]` or a `[1, 1, a, b]` array viewed `[a, b]`.
    A unit axis contributes nothing to the row-major position.
  * A rank-3 array broadcast along its middle axis (`[a, 1, c]` to `[a, b, c]`) or along its first axis (`[1, b, c]` to
    `[a, b, c]`): the broadcast axis' coordinate is forgotten.
  * The two leading axes of `[a, b, c]` folded into one of extent `n = a · b` and unfolded again: entry `(i, j, k)` and
    entry `(r, k)` are the same element exactly when `r = i · b + j`.
-/
import Idealize.ShloMosaic.Lib.Pipeline.Value
import Idealize.ShloMosaic.Lib.ValueIdx

namespace Idealize.ShloMosaic.ValueIdx

open Idealize.ShloMosaic

variable {α : Type}

/-! ## Two unit axes dropped by a shape cast -/

/-- A `[1, a, 1, b]` array cast to the matrix `[a, b]` reads, at `(i, j)`, the operand at `(0, i, 0, j)`: both have
    row-major position `i · b + j`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- A `[1, 1, a, b]` array cast to the matrix `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## A rank-3 array broadcast along one axis -/

/-- An `[a, 1, c]` array broadcast to `[a, b, c]` reads, at `(i, j, k)`, the operand at `(i, 0, k)`: every `j` sees the
    same slab. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees the
    same matrix. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## Two leading axes folded into one, and unfolded -/

/-- An `[a, b, c]` array cast to `[n, c]` (the two leading axes folded, `n = a · b`) reads, at `(r, k)` with
    `r = i · b + j`, the operand at `(i, j, k)`: both have row-major position `(i · b + j) · c + k`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (its leading axis unfolded, `n = a · b`) reads, at `(i, j, k)`, the operand at
    `(r, k)` with `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Idealize.ShloMosaic.ValueIdx
-- ==== Proof.BodyJoint.lean ====
/-
  What the kernel's body computes from the blocks it loads.

  At a grid point the body holds 40 encoder rows (a [1, 40, 1, 512] block), the 50 predictor rows of one batch entry
  (a [1, 1, 50, 512] block) and the six parameter arrays whole. It projects both blocks by a matrix product into a zero
  accumulator and adds the bias row to every row; pairs every encoder row with every predictor row by broadcasting,
  adds, takes tanh; folds the 40 × 50 pairs into 2000 rows, multiplies by the output weights, adds the output bias row,
  and unfolds the 2000 rows again. The narrowing of the matrix products' operands to bfloat16 is the identity on
  extended reals.

  Read at entry (t, u, v) of the [40, 50, 1024] result, this is `Cert.JointNet.joint` of the blocks at (0, t, u, v):
  row r = t · 50 + u of the folded array is the pair (t, u), and each matrix product at an entry is the sum over the
  shared axis.
-/
import proofs.«146606_j39874476376809_1_alg».proof.Proof.Gen.KernelIdeal.Skeleton
import proofs.«146606_j39874476376809_1_alg».proof.Proof.JointSpec
import proofs.«146606_j39874476376809_1_alg».proof.Proof.LibMatDot
import proofs.«146606_j39874476376809_1_alg».proof.Proof.LibUnitAxes
import proofs.«146606_j39874476376809_1_alg».proof.Proof.LibJoinAxes
import Idealize.ShloMosaic.Lib.ValueLayout

noncomputable section

open scoped BigOperators

namespace Cert.KernelIdeal.Body

open Cert.KernelIdeal Cert.KernelIdeal.Gen Idealize.ShloMosaic Idealize.ShloMosaic.ValueIdx Cert.JointNet

/-! ## The three matrix products at an entry -/

/-- The encoder block's projection at (p, q): the sum over the 512 input features. -/
theorem encDot (lhs : FVec Ideal S40x512 .bf16) (rhs : FVec Ideal S512x512 .bf16) (p : Fin 40) (q : Fin 512) :
    matmul dot_S40x512_S512x512_S40x512_1_0_0_1_n_n none lhs rhs (constant (F := Ideal) S40x512 .f32 0x00000000#32) (ix2 p q)
      = ∑ k : Fin 512, lhs (ix2 p k) * rhs (ix2 k q) :=
  mat_dot_zero dot_S40x512_S512x512_S40x512_1_0_0_1_n_n none rfl rfl
    (fun j c => by
      unfold DotDims.lhsIdx
      rw [dif_neg (show ¬(0 : Fin S40x512.rank) ∈ dot_S40x512_S512x512_S40x512_1_0_0_1_n_n.lhsBatch by decide),
        dif_pos (show (0 : Fin S40x512.rank) ∈ dot_S40x512_S512x512_S40x512_1_0_0_1_n_n.lhsNonContracting by decide)]
      rfl)
    (fun j c => dot_S40x512_S512x512_S40x512_1_0_0_1_n_n.lhsIdx_val_of_single rfl j c)
    (fun j c => dot_S40x512_S512x512_S40x512_1_0_0_1_n_n.rhsIdx_val_of_single rfl j c)
    (fun j c => by
      unfold DotDims.rhsIdx
      rw [dif_neg (show ¬(1 : Fin S512x512.rank) ∈ dot_S40x512_S512x512_S40x512_1_0_0_1_n_n.rhsBatch by decide),
        dif_pos (show (1 : Fin S512x512.rank) ∈ dot_S40x512_S512x512_S40x512_1_0_0_1_n_n.rhsNonContracting by decide)]
      rfl)
    lhs rhs p q

/-- The predictor block's projection at (p, q): the sum over the 512 input features. -/
theorem prdDot (lhs : FVec Ideal S50x512 .bf16) (rhs : FVec Ideal S512x512 .bf16) (p : Fin 50) (q : Fin 512) :
    matmul dot_S50x512_S512x512_S50x512_1_0_0_1_n_n none lhs rhs (constant (F := Ideal) S50x512 .f32 0x00000000#32) (ix2 p q)
      = ∑ k : Fin 512, lhs (ix2 p k) * rhs (ix2 k q) :=
  mat_dot_zero dot_S50x512_S512x512_S50x512_1_0_0_1_n_n none rfl rfl
    (fun j c => by
      unfold DotDims.lhsIdx
      rw [dif_neg (show ¬(0 : Fin S50x512.rank) ∈ dot_S50x512_S512x512_S50x512_1_0_0_1_n_n.lhsBatch by decide),
        dif_pos (show (0 : Fin S50x512.rank) ∈ dot_S50x512_S512x512_S50x512_1_0_0_1_n_n.lhsNonContracting by decide)]
      rfl)
    (fun j c => dot_S50x512_S512x512_S50x512_1_0_0_1_n_n.lhsIdx_val_of_single rfl j c)
    (fun j c => dot_S50x512_S512x512_S50x512_1_0_0_1_n_n.rhsIdx_val_of_single rfl j c)
    (fun j c => by
      unfold DotDims.rhsIdx
      rw [dif_neg (show ¬(1 : Fin S512x512.rank) ∈ dot_S50x512_S512x512_S50x512_1_0_0_1_n_n.rhsBatch by decide),
        dif_pos (show (1 : Fin S512x512.rank) ∈ dot_S50x512_S512x512_S50x512_1_0_0_1_n_n.rhsNonContracting by decide)]
      rfl)
    lhs rhs p q

/-- The output projection of the folded hidden activations at (p, q): the sum over the 512 hidden features. -/
theorem outDot (lhs : FVec Ideal S2000x512 .bf16) (rhs : FVec Ideal S512x1024 .bf16) (p : Fin 2000) (q : Fin 1024) :
    matmul dot_S2000x512_S512x1024_S2000x1024_1_0_0_1_n_n none lhs rhs (constant (F := Ideal) S2000x1024 .f32 0x00000000#32) (ix2 p q)
      = ∑ k : Fin 512, lhs (ix2 p k) * rhs (ix2 k q) :=
  mat_dot_zero dot_S2000x512_S512x1024_S2000x1024_1_0_0_1_n_n none rfl rfl
    (fun j c => by
      unfold DotDims.lhsIdx
      rw [dif_neg (show ¬(0 : Fin S2000x512.rank) ∈ dot_S2000x512_S512x1024_S2000x1024_1_0_0_1_n_n.lhsBatch by decide),
        dif_pos (show (0 : Fin S2000x512.rank) ∈ dot_S2000x512_S512x1024_S2000x1024_1_0_0_1_n_n.lhsNonContracting by decide)]
      rfl)
    (fun j c => dot_S2000x512_S512x1024_S2000x1024_1_0_0_1_n_n.lhsIdx_val_of_single rfl j c)
    (fun j c => dot_S2000x512_S512x1024_S2000x1024_1_0_0_1_n_n.rhsIdx_val_of_single rfl j c)
    (fun j c => by
      unfold DotDims.rhsIdx
      rw [dif_neg (show ¬(1 : Fin S512x1024.rank) ∈ dot_S2000x512_S512x1024_S2000x1024_1_0_0_1_n_n.rhsBatch by decide),
        dif_pos (show (1 : Fin S512x1024.rank) ∈ dot_S2000x512_S512x1024_S2000x1024_1_0_0_1_n_n.rhsNonContracting by decide)]
      rfl)
    lhs rhs p q

/-! ## The body's stages -/

/-- The encoder block projected, with the bias row added to every row. -/
def encBlk (P0 : Vec Ideal S1x40x1x512 .f32) (P2 : Vec Ideal S512x512 .bf16) (P3 : Vec Ideal S512 .f32) : FVec Ideal S40x512 .f32 :=
  addf (matmul dot_S40x512_S512x512_S40x512_1_0_0_1_n_n none (truncf .bf16 (shapeCast S40x512 P0 shapeCasts_S1x40x1x512_S40x512) bitsLt_bf16_f32)
      (shapeCast S512x512 P2 shapeCasts_S512x512_S512x512 : FVec Ideal S512x512 .bf16) (constant S40x512 .f32 0x00000000#32))
    (broadcastTo S40x512 (shapeCast S1x512 P3 shapeCasts_S512_S1x512) broadcasts_S1x512_S40x512)

/-- The predictor block projected, with the bias row added to every row. -/
def prdBlk (P1 : Vec Ideal S1x1x50x512 .f32) (P4 : Vec Ideal S512x512 .bf16) (P5 : Vec Ideal S512 .f32) : FVec Ideal S50x512 .f32 :=
  addf (matmul dot_S50x512_S512x512_S50x512_1_0_0_1_n_n none (truncf .bf16 (shapeCast S50x512 P1 shapeCasts_S1x1x50x512_S50x512) bitsLt_bf16_f32)
      (shapeCast S512x512 P4 shapeCasts_S512x512_S512x512 : FVec Ideal S512x512 .bf16) (constant S50x512 .f32 0x00000000#32))
    (broadcastTo S50x512 (shapeCast S1x512 P5 shapeCasts_S512_S1x512) broadcasts_S1x512_S50x512)

/-- Every encoder row paired with every predictor row, added, through tanh, the pairs folded into 2000 rows. -/
def hidBlk (a : FVec Ideal S40x512 .f32) (b : FVec Ideal S50x512 .f32) : FVec Ideal S2000x512 .f32 :=
  shapeCast S2000x512
    (tanh (addf (broadcastTo S40x50x512 (shapeCast S40x1x512 a shapeCasts_S40x512_S40x1x512) broadcasts_S40x1x512_S40x50x512)
      (broadcastTo S40x50x512 (shapeCast S1x50x512 b shapeCasts_S50x512_S1x50x512) broadcasts_S1x50x512_S40x50x512)))
    shapeCasts_S40x50x512_S2000x512

/-- The folded hidden activations projected to the outputs, the bias row added, the 2000 rows unfolded. -/
def outBlk (P6 : Vec Ideal S512x1024 .bf16) (P7 : Vec Ideal S1024 .f32) (hd : FVec Ideal S2000x512 .f32) : FVec Ideal S40x50x1024 .f32 :=
  shapeCast S40x50x1024
    (addf (matmul dot_S2000x512_S512x1024_S2000x1024_1_0_0_1_n_n none (truncf .bf16 hd bitsLt_bf16_f32)
        (shapeCast S512x1024 P6 shapeCasts_S512x1024_S512x1024 : FVec Ideal S512x1024 .bf16) (constant S2000x1024 .f32 0x00000000#32))
      (broadcastTo S2000x1024 (shapeCast S1x1024 P7 shapeCasts_S1024_S1x1024) broadcasts_S1x1024_S2000x1024))
    shapeCasts_S2000x1024_S40x50x1024

variable (P0 : Vec Ideal S1x40x1x512 .f32) (P1 : Vec Ideal S1x1x50x512 .f32) (P2 : Vec Ideal S512x512 .bf16)
  (P3 : Vec Ideal S512 .f32) (P4 : Vec Ideal S512x512 .bf16) (P5 : Vec Ideal S512 .f32)
  (P6 : Vec Ideal S512x1024 .bf16) (P7 : Vec Ideal S1024 .f32)

/-- The body's value is the four stages composed. -/
theorem pay_eq : k0_pay2 (F := Ideal) P0 P1 P2 P3 P4 P5 P6 P7 = outBlk P6 P7 (hidBlk (encBlk P0 P2 P3) (prdBlk P1 P4 P5)) := rfl

/-! ## Each stage at an entry -/

/-- Row `t` of the projected encoder block is `enc` of the block at (0, t). -/
theorem encBlk_at (t : Fin 40) (h : Fin 512) :
    encBlk P0 P2 P3 (ix2 t h) = enc (B := 1) (T := 40) P0 P2 P3 (0 : Fin 1) t h := by
  unfold encBlk enc
  rw [addf_apply]
  refine congrArg₂ (· + ·) ?_ ?_
  · refine (encDot _ _ t h).trans (Finset.sum_congr rfl fun e _ => ?_)
    refine congrArg₂ (· * ·) ?_ ?_
    · exact shapeCast_1a1b_ab_apply P0 _ t e
    · exact congrFun (shapeCast_self P2 _) (ix2 e h)
  · exact (broadcastTo_1b_ab_apply _ _ t h).trans (shapeCast_a_1a_apply P3 _ (0 : Fin 1) h)

/-- Row `u` of the projected predictor block is `prd` of the block at (0, u). -/
theorem prdBlk_at (u : Fin 50) (h : Fin 512) :
    prdBlk P1 P4 P5 (ix2 u h) = prd (B := 1) (U := 50) P1 P4 P5 (0 : Fin 1) u h := by
  unfold prdBlk prd
  rw [addf_apply]
  refine congrArg₂ (· + ·) ?_ ?_
  · refine (prdDot _ _ u h).trans (Finset.sum_congr rfl fun e _ => ?_)
    refine congrArg₂ (· * ·) ?_ ?_
    · exact shapeCast_11ab_ab_apply P1 _ u e
    · exact congrFun (shapeCast_self P4 _) (ix2 e h)
  · exact (broadcastTo_1b_ab_apply _ _ u h).trans (shapeCast_a_1a_apply P5 _ (0 : Fin 1) h)

/-- Row r = t · 50 + u of the folded hidden activations is the pair (t, u): tanh of the two rows added. -/
theorem hidBlk_at (a : FVec Ideal S40x512 .f32) (b : FVec Ideal S50x512 .f32) (t : Fin 40) (u : Fin 50) (h : Fin 512)
    (r : Fin 2000) (hr : r.val = t.val * 50 + u.val) :
    hidBlk a b (ix2 r h) = Ideal.tanh (a (ix2 t h) + b (ix2 u h)) := by
  unfold hidBlk
  refine (shapeCast_abc_nc_apply _ _ t u h r hr).trans ?_
  refine congrArg Ideal.tanh (congrArg₂ (· + ·) ?_ ?_)
  · exact (broadcastTo_a1c_abc_apply _ _ t u h).trans (shapeCast_ab_a1b_apply a _ t (0 : Fin 1) h)
  · exact (broadcastTo_1bc_abc_apply _ _ t u h).trans (shapeCast_ab_1ab_apply b _ (0 : Fin 1) u h)

/-- Entry (t, u, v) of the unfolded output is row r = t · 50 + u of the hidden activations against column `v` of the
    output weights, plus the output bias at `v`. -/
theorem outBlk_at (hd : FVec Ideal S2000x512 .f32) (t : Fin 40) (u : Fin 50) (v : Fin 1024)
    (r : Fin 2000) (hr : r.val = t.val * 50 + u.val) :
    outBlk P6 P7 hd (ix3 t u v) = (∑ h : Fin 512, hd (ix2 r h) * P6 (ix2 h v)) + P7 (ix1 v) := by
  unfold outBlk
  refine (shapeCast_nc_abc_apply _ _ t u v r hr).trans ?_
  rw [addf_apply]
  refine congrArg₂ (· + ·) ?_ ?_
  · refine (outDot _ _ r v).trans (Finset.sum_congr rfl fun h _ => ?_)
    exact congrArg (hd (ix2 r h) * ·) (congrFun (shapeCast_self P6 _) (ix2 h v))
  · exact (broadcastTo_1b_ab_apply _ _ r v).trans (shapeCast_a_1a_apply P7 _ (0 : Fin 1) v)

/-- The body's value at entry (t, u, v) is the joint network of the loaded blocks at (0, t, u, v). -/
theorem pay_at (t : Fin 40) (u : Fin 50) (v : Fin 1024) :
    k0_pay2 (F := Ideal) P0 P1 P2 P3 P4 P5 P6 P7 (ix3 t u v)
      = joint (B := 1) (T := 40) (U := 50) P0 P1 P2 P3 P4 P5 P6 P7 (0 : Fin 1) t u v := by
  rw [pay_eq]
  refine (outBlk_at P6 P7 _ t u v ⟨t.val * 50 + u.val, by have := t.isLt; have := u.isLt; omega⟩ rfl).trans ?_
  unfold joint
  refine congrArg₂ (· + ·) (Finset.sum_congr rfl fun h _ => ?_) rfl
  rw [hidBlk_at _ _ t u h _ rfl, encBlk_at, prdBlk_at]

end Cert.KernelIdeal.Body

end
-- ==== Proof.KernelJoint.lean ====
/-
  The kernel's run, read: its result array is the joint network of its arguments.

  The grid has 8 × 5 points. At point (b, s) the pipeline stages rows 40 s … 40 s + 39 of batch entry b of the encoder
  array, the 50 predictor rows of batch entry b, and the six parameter arrays whole (the three weight matrices as the
  host narrowed them to bfloat16 before the call, which on extended reals is no change), and writes back block (b, s)
  of the [8, 200, 50, 1024] result. The body leaves in that block the joint network of the staged blocks
  (`Cert.KernelIdeal.Body.pay_at`); since an entry of the joint network only depends on one encoder row and one predictor
  row, that is the joint network of the whole arrays at the block's place. The 40 blocks tile the result, so the
  result array is `Cert.JointNet.jointArr` of the arguments.
-/
import proofs.«146606_j39874476376809_1_alg».proof.Proof.Gen.KernelIdeal.Value
import proofs.«146606_j39874476376809_1_alg».proof.Proof.BodyJoint
import Idealize.ShloMosaic.Lib.Pipeline.Value
import Idealize.ShloMosaic.Lib.StableHlo.Run
import Idealize.ShloMosaic.Lib.ValueLayout

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.JointNet
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## One grid point, over the staged blocks as variables -/

/-- What the body leaves in the output's staging buffer, at entry (z, p, u, v) of the [1, 40, 50, 1024] block: the
    joint network of the staged blocks at (0, p, u, v). -/
theorem out_at (x0 : Vec Ideal S1x40x1x512 .f32) (x1 : Vec Ideal S1x1x50x512 .f32) (x2 : Vec Ideal S512x512 .bf16)
    (x3 : Vec Ideal S512 .f32) (x4 : Vec Ideal S512x512 .bf16) (x5 : Vec Ideal S512 .f32)
    (x6 : Vec Ideal S512x1024 .bf16) (x7 : Vec Ideal S1024 .f32)
    (z : Fin 1) (p : Fin 40) (u : Fin 50) (v : Fin 1024) :
    out0_8 (F := Ideal) x0 x1 x2 x3 x4 x5 x6 x7 (ix4 z p u v)
      = joint (B := 1) (T := 40) (U := 50) x0 x1 x2 x3 x4 x5 x6 x7 (0 : Fin 1) p u v := by
  unfold out0_8
  rw [View.canon_unit_zero hz4]
  simp only [View.ld_unit_zero (S := S1x40x1x512) hz4, View.ld_unit_zero (S := S1x1x50x512) hz4,
    View.ld_unit_zero (S := S512x512) hz2, View.ld_unit_zero (S := S512) hz1,
    View.ld_unit_zero (S := S512x1024) hz2, View.ld_unit_zero (S := S1024) hz1]
  unfold k0_pay1
  refine (shapeCast_abc_1abc_apply _ _ z p u v).trans ?_
  exact Body.pay_at x0 x1 x2 x3 x4 x5 x6 x7 p u v

/-! ## The index maps, decided over the 40 grid points -/

/-- The encoder window moves with the output window on the batch and time axes; the predictor window on the batch axis
    only; the six parameter windows never move; the output's block indices range over 8 × 5. -/
theorem idx_facts : ∀ t : Fin cfg0.N,
    win0_0.index t (0 : Fin 4) = win0_8.index t (0 : Fin 4) ∧ win0_0.index t (1 : Fin 4) = win0_8.index t (1 : Fin 4)
    ∧ win0_0.index t (2 : Fin 4) = 0 ∧ win0_0.index t (3 : Fin 4) = 0
    ∧ win0_1.index t (0 : Fin 4) = win0_8.index t (0 : Fin 4) ∧ win0_1.index t (1 : Fin 4) = 0
    ∧ win0_1.index t (2 : Fin 4) = 0 ∧ win0_1.index t (3 : Fin 4) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 4) ≤ 7 ∧ win0_8.index t (1 : Fin 4) ≤ 4
    ∧ win0_8.index t (2 : Fin 4) = 0 ∧ win0_8.index t (3 : Fin 4) = 0 :=
  (by decide +kernel : ∀ t : Fin grid0.N, _)

/-- Every block (b, s) of the result is some point's. -/
theorem idx_onto : ∀ (q0 : Fin 8) (q1 : Fin 5), ∃ t : Fin cfg0.N, win0_8.index t = ![q0.val, q1.val, 0, 0] :=
  (by decide +kernel : ∀ (q0 : Fin 8) (q1 : Fin 5), ∃ t : Fin grid0.N, win0_8.index t = ![q0.val, q1.val, 0, 0])

/-! ## The arrays the region finds -/

/-- The first weight matrix as the region finds it: the argument narrowed to bfloat16, which is the argument. -/
theorem V_v0 (c : Dev nD) : (V m c main_v0 : S512x512.Idx → EReal) = m ((c : Thread nD τ).loc main_arg2) := by
  dsimp only [Gen.V, Gen.hostOps0]; after_results; rfl

/-- The second weight matrix as the region finds it. -/
theorem V_v1 (c : Dev nD) : (V m c main_v1 : S512x512.Idx → EReal) = m ((c : Thread nD τ).loc main_arg4) := by
  dsimp only [Gen.V, Gen.hostOps0]; after_results; rfl

/-- The output weight matrix as the region finds it. -/
theorem V_v2 (c : Dev nD) : (V m c main_v2 : S512x1024.Idx → EReal) = m ((c : Thread nD τ).loc main_arg6) := by
  dsimp only [Gen.V, Gen.hostOps0]; after_results; rfl

/-! ## Each window's block at a point, as rows of an argument array -/

/-- The encoder window's block at point `t` holds rows `40 s … 40 s + 39` of batch entry `b` of the encoder argument,
    where (b, s) is the window's block index at `t`. -/
theorem blk0_at (c : Dev nD) (t : Fin cfg0.N) (z : Fin 1) (p : Fin 40) (z' : Fin 1) (e : Fin 512) (b : Fin 8) (q : Fin 200)
    (hb : b.val = win0_0.index t (0 : Fin 4)) (hq : q.val = win0_0.index t (1 : Fin 4) * 40 + p.val)
    (h2 : win0_0.index t (2 : Fin 4) = 0) (h3 : win0_0.index t (3 : Fin 4) = 0) :
    (iblk m c 0 t : Vec Ideal S1x40x1x512 .f32) (ix4 z p z' e)
      = (m ((c : Thread nD τ).loc main_arg0) : S8x200x1x512.Idx → EReal) (ix4 b q (0 : Fin 1) e) := by
  show V m c main_arg0 (((cfg0.win 0).blk t).view.emb (ix4 z p z' e)) = _
  rw [V_main_arg0]
  refine congrArg _ (funext fun a => Fin.ext ?_)
  match a with
  | ⟨0, _⟩ => show win0_0.index t (0 : Fin 4) * 1 + 1 * z.val = b.val; omega
  | ⟨1, _⟩ => show win0_0.index t (1 : Fin 4) * 40 + 1 * p.val = q.val; omega
  | ⟨2, _⟩ => show win0_0.index t (2 : Fin 4) * 1 + 1 * z'.val = 0; omega
  | ⟨3, _⟩ => show win0_0.index t (3 : Fin 4) * 512 + 1 * e.val = e.val; omega

/-- The predictor window's block at point `t` holds the 50 rows of batch entry `b` of the predictor argument. -/
theorem blk1_at (c : Dev nD) (t : Fin cfg0.N) (z z' : Fin 1) (u : Fin 50) (e : Fin 512) (b : Fin 8)
    (hb : b.val = win0_1.index t (0 : Fin 4)) (h1 : win0_1.index t (1 : Fin 4) = 0)
    (h2 : win0_1.index t (2 : Fin 4) = 0) (h3 : win0_1.index t (3 : Fin 4) = 0) :
    (iblk m c 1 t : Vec Ideal S1x1x50x512 .f32) (ix4 z z' u e)
      = (m ((c : Thread nD τ).loc main_arg1) : S8x1x50x512.Idx → EReal) (ix4 b (0 : Fin 1) u e) := by
  show V m c main_arg1 (((cfg0.win 1).blk t).view.emb (ix4 z z' u e)) = _
  rw [V_main_arg1]
  refine congrArg _ (funext fun a => Fin.ext ?_)
  match a with
  | ⟨0, _⟩ => show win0_1.index t (0 : Fin 4) * 1 + 1 * z.val = b.val; omega
  | ⟨1, _⟩ => show win0_1.index t (1 : Fin 4) * 1 + 1 * z'.val = 0; omega
  | ⟨2, _⟩ => show win0_1.index t (2 : Fin 4) * 50 + 1 * u.val = u.val; omega
  | ⟨3, _⟩ => show win0_1.index t (3 : Fin 4) * 512 + 1 * e.val = e.val; omega

/-- A window whose one block is its whole matrix reads the matrix. -/
theorem blk2_eq (c : Dev nD) (t : Fin cfg0.N) (h0 : win0_2.index t (0 : Fin 2) = 0) (h1 : win0_2.index t (1 : Fin 2) = 0) :
    (iblk m c 2 t : Vec Ideal S512x512 .bf16) = (m ((c : Thread nD τ).loc main_arg2) : S512x512.Idx → EReal) := by
  funext y
  show (V m c main_v0 : S512x512.Idx → EReal) (((cfg0.win 2).blk t).view.emb y) = _
  rw [V_v0]
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem blk4_eq (c : Dev nD) (t : Fin cfg0.N) (h0 : win0_4.index t (0 : Fin 2) = 0) (h1 : win0_4.index t (1 : Fin 2) = 0) :
    (iblk m c 4 t : Vec Ideal S512x512 .bf16) = (m ((c : Thread nD τ).loc main_arg4) : S512x512.Idx → EReal) := by
  funext y
  show (V m c main_v1 : S512x512.Idx → EReal) (((cfg0.win 4).blk t).view.emb y) = _
  rw [V_v1]
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem blk6_eq (c : Dev nD) (t : Fin cfg0.N) (h0 : win0_6.index t (0 : Fin 2) = 0) (h1 : win0_6.index t (1 : Fin 2) = 0) :
    (iblk m c 6 t : Vec Ideal S512x1024 .bf16) = (m ((c : Thread nD τ).loc main_arg6) : S512x1024.Idx → EReal) := by
  funext y
  show (V m c main_v2 : S512x1024.Idx → EReal) (((cfg0.win 6).blk t).view.emb y) = _
  rw [V_v2]
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 1024 + 1 * (y 1).val = (y 1).val; omega

/-- A window whose one block is its whole vector reads the vector. -/
theorem blk3_eq (c : Dev nD) (t : Fin cfg0.N) (h0 : win0_3.index t (0 : Fin 1) = 0) :
    (iblk m c 3 t : Vec Ideal S512 .f32) = (m ((c : Thread nD τ).loc main_arg3) : S512.Idx → EReal) := by
  funext y
  show V m c main_arg3 (((cfg0.win 3).blk t).view.emb y) = _
  rw [V_main_arg3]
  refine congrArg _ (funext fun a => Fin.ext ?_)
  match a with
  | ⟨0, _⟩ => show win0_3.index t (0 : Fin 1) * 512 + 1 * (y 0).val = (y 0).val; omega

theorem blk5_eq (c : Dev nD) (t : Fin cfg0.N) (h0 : win0_5.index t (0 : Fin 1) = 0) :
    (iblk m c 5 t : Vec Ideal S512 .f32) = (m ((c : Thread nD τ).loc main_arg5) : S512.Idx → EReal) := by
  funext y
  show V m c main_arg5 (((cfg0.win 5).blk t).view.emb y) = _
  rw [V_main_arg5]
  refine congrArg _ (funext fun a => Fin.ext ?_)
  match a with
  | ⟨0, _⟩ => show win0_5.index t (0 : Fin 1) * 512 + 1 * (y 0).val = (y 0).val; omega

theorem blk7_eq (c : Dev nD) (t : Fin cfg0.N) (h0 : win0_7.index t (0 : Fin 1) = 0) :
    (iblk m c 7 t : Vec Ideal S1024 .f32) = (m ((c : Thread nD τ).loc main_arg7) : S1024.Idx → EReal) := by
  funext y
  show V m c main_arg7 (((cfg0.win 7).blk t).view.emb y) = _
  rw [V_main_arg7]
  refine congrArg _ (funext fun a => Fin.ext ?_)
  match a with
  | ⟨0, _⟩ => show win0_7.index t (0 : Fin 1) * 1024 + 1 * (y 0).val = (y 0).val; omega

/-! ## The result array -/

/-- The joint network of the argument arrays as launched. -/
abbrev G (c : Dev nD) : S8x200x50x1024.Idx → EReal :=
  jointArr (B := 8) (T := 200) (U := 50)
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- What point `t` writes back is block `t` of the joint network of the arguments. -/
theorem flushed8_eq (c : Dev nD) (t : Fin cfg0.N) :
    (dats m 0 c).flushed 8 t = ((cfg0.win 8).blk t).view.read (Elt Ideal) (G m c) := by
  rw [Value.flushed8]
  obtain ⟨e00, e01, e02, e03, e10, e11, e12, e13, e20, e21, e30, e40, e41, e50, e60, e61, e70, b0, b1, e82, e83⟩ :=
    idx_facts t
  funext y
  obtain ⟨z, p, u, v, rfl⟩ : ∃ (z : Fin 1) (p : Fin 40) (u : Fin 50) (v : Fin 1024), y = ix4 z p u v :=
    ⟨y 0, y 1, y 2, y 3, eq_ix4 y⟩
  show out0_8 (iblk m c 0 t) (iblk m c 1 t) (iblk m c 2 t) (iblk m c 3 t) (iblk m c 4 t) (iblk m c 5 t) (iblk m c 6 t)
      (iblk m c 7 t) (ix4 z p u v) = G m c (((cfg0.win 8).blk t).view.emb (ix4 z p u v))
  refine (out_at _ _ _ _ _ _ _ _ z p u v).trans ?_
  have hemb : ((cfg0.win 8).blk t).view.emb (ix4 z p u v)
      = ix4 (⟨win0_8.index t (0 : Fin 4), by omega⟩ : Fin 8)
          (⟨win0_8.index t (1 : Fin 4) * 40 + p.val, by have := p.isLt; omega⟩ : Fin 200) u v :=
    funext fun a => Fin.ext (by
      match a with
      | ⟨0, _⟩ => show win0_8.index t (0 : Fin 4) * 1 + 1 * z.val = win0_8.index t (0 : Fin 4); omega
      | ⟨1, _⟩ => show win0_8.index t (1 : Fin 4) * 40 + 1 * p.val = win0_8.index t (1 : Fin 4) * 40 + p.val; omega
      | ⟨2, _⟩ => show win0_8.index t (2 : Fin 4) * 50 + 1 * u.val = u.val; omega
      | ⟨3, _⟩ => show win0_8.index t (3 : Fin 4) * 1024 + 1 * v.val = v.val; omega)
  rw [hemb, blk2_eq m c t e20 e21, blk3_eq m c t e30, blk4_eq m c t e40 e41, blk5_eq m c t e50, blk6_eq m c t e60 e61,
    blk7_eq m c t e70]
  exact joint_congr _ _ _ _ _ _ _ _ _ _ (0 : Fin 1) p u _ _ u v
    (fun e => blk0_at m c t (0 : Fin 1) p (0 : Fin 1) e _ _ e00.symm (by show _ = win0_0.index t (1 : Fin 4) * 40 + p.val; rw [e01]) e02 e03)
    (fun e => blk1_at m c t (0 : Fin 1) (0 : Fin 1) u e _ e10.symm e11 e12 e13)

/-- An index of the result is in point `t`'s block iff each coordinate is in the block's range on its axis. -/
theorem mem_blk8 (t : Fin cfg0.N) (i : S8x200x50x1024.Idx) :
    i ∈ ((cfg0.win 8).blk t).view.set ↔ ∀ a : Fin 4, win0_8.index t a * S1x40x50x1024.size a ≤ (i a).val
      ∧ (i a).val < win0_8.index t a * S1x40x50x1024.size a + S1x40x50x1024.size a := by
  show i ∈ ((View.whole main_v3).slice (win0_8.rect t)).set ↔ _
  rw [View.set_slice_whole, Rect.mem_set_unit]
  exact Iff.rfl

/-- The 40 blocks tile the result: entry (b, r, u, v) is in the block of the point with block index (b, r / 40). -/
theorem cover8 (i : S8x200x50x1024.Idx) :
    ∃ t : Fin cfg0.N, (cfg0.win 8).flush t = true ∧ i ∈ ((cfg0.win 8).blk t).view.set := by
  have hi0 : (i 0).val < 8 := (i 0).isLt
  have hi1 : (i 1).val < 200 := (i 1).isLt
  have hi2 : (i 2).val < 50 := (i 2).isLt
  have hi3 : (i 3).val < 1024 := (i 3).isLt
  obtain ⟨t, ht⟩ := idx_onto ⟨(i 0).val, hi0⟩ ⟨(i 1).val / 40, by omega⟩
  have q0 : win0_8.index t (0 : Fin 4) = (i 0).val := congrFun ht 0
  have q1 : win0_8.index t (1 : Fin 4) = (i 1).val / 40 := congrFun ht 1
  have q2 : win0_8.index t (2 : Fin 4) = 0 := congrFun ht 2
  have q3 : win0_8.index t (3 : Fin 4) = 0 := congrFun ht 3
  refine ⟨t, flush0_8 t, ?_⟩
  rw [mem_blk8]
  intro a
  match a with
  | ⟨0, _⟩ =>
    show win0_8.index t (0 : Fin 4) * 1 ≤ (i 0).val ∧ (i 0).val < win0_8.index t (0 : Fin 4) * 1 + 1; omega
  | ⟨1, _⟩ =>
    show win0_8.index t (1 : Fin 4) * 40 ≤ (i 1).val ∧ (i 1).val < win0_8.index t (1 : Fin 4) * 40 + 40; omega
  | ⟨2, _⟩ =>
    show win0_8.index t (2 : Fin 4) * 50 ≤ (i 2).val ∧ (i 2).val < win0_8.index t (2 : Fin 4) * 50 + 50; omega
  | ⟨3, _⟩ =>
    show win0_8.index t (3 : Fin 4) * 1024 ≤ (i 3).val ∧ (i 3).val < win0_8.index t (3 : Fin 4) * 1024 + 1024; omega

/-- The result array after the run is the joint network of the arguments. -/
theorem final8 (c : Dev nD) : (dats m 0 c).arrAt 8 cfg0.N = G m c :=
  (dats m 0 c).arrAt_eq_of_cover 8 (G m c) (fun t _ => flushed8_eq m c t) cover8

/-- The run, read: every weakly fair execution of the kernel's program terminates with the result array at the joint
    network of the arguments and the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2⟩) (Value.run_blocks m ρ)

end Cert.KernelIdeal.Whole

end
-- ==== Proof.RefJoint.lean ====
/-
  The reference program computes the joint network.

  Its sixteen host operations are three contractions over the last axis of the left operand (each a sum of 512
  products), bias vectors broadcast along every other axis, two broadcasts that pair every time step with every label
  position, a tanh, and additions. Read at an entry (b, t, u, v) of the result and followed back through the broadcasts,
  they name exactly the sums of `Cert.JointNet.joint`: the contraction index of each `dot_general` is the summation
  variable, and every other coordinate is carried unchanged or dropped where an axis has extent one.
-/
import proofs.«146606_j39874476376809_1_alg».proof.Proof.Gen.ReferenceIdeal.Read
import proofs.«146606_j39874476376809_1_alg».proof.Proof.JointSpec

noncomputable section

open scoped BigOperators

namespace Cert.ReferenceIdeal.RefJoint

open Cert.ReferenceIdeal Cert.ReferenceIdeal.Read Idealize.ShloMosaic Idealize.ShloMosaic.ValueIdx Cert.JointNet

/-! ## Where each operation reads its operands, in coordinates -/

/-- The encoder contraction at (b, t, z, h) reads row (b, t, z) of the input along the summation variable -/
theorem lidx_v0 (b : Fin 8) (t : Fin 200) (z : Fin 1) (h k : Fin 512) :
    lidx_main_v0 (ix4 b t z h) k = ix4 b t z k :=
  funext fun a => by match a with | ⟨0, _⟩ => rfl | ⟨1, _⟩ => rfl | ⟨2, _⟩ => rfl | ⟨3, _⟩ => rfl

/-- and column `h` of the weight matrix. -/
theorem ridx_v0 (b : Fin 8) (t : Fin 200) (z : Fin 1) (h k : Fin 512) :
    ridx_main_v0 (ix4 b t z h) k = ix2 k h :=
  funext fun a => by match a with | ⟨0, _⟩ => rfl | ⟨1, _⟩ => rfl

/-- The encoder bias, broadcast twice, is read at the hidden feature alone. -/
theorem idx_v1_v2 (b : Fin 8) (t : Fin 200) (z : Fin 1) (h : Fin 512) :
    idx_main_v1 (idx_main_v2 (ix4 b t z h)) = ix1 h :=
  funext fun a => by match a with | ⟨0, _⟩ => rfl

/-- The predictor contraction at (b, z, u, h) reads row (b, z, u) of the input along the summation variable -/
theorem lidx_v4 (b : Fin 8) (z : Fin 1) (u : Fin 50) (h k : Fin 512) :
    lidx_main_v4 (ix4 b z u h) k = ix4 b z u k :=
  funext fun a => by match a with | ⟨0, _⟩ => rfl | ⟨1, _⟩ => rfl | ⟨2, _⟩ => rfl | ⟨3, _⟩ => rfl

/-- and column `h` of the weight matrix. -/
theorem ridx_v4 (b : Fin 8) (z : Fin 1) (u : Fin 50) (h k : Fin 512) :
    ridx_main_v4 (ix4 b z u h) k = ix2 k h :=
  funext fun a => by match a with | ⟨0, _⟩ => rfl | ⟨1, _⟩ => rfl

/-- The predictor bias, broadcast twice, is read at the hidden feature alone. -/
theorem idx_v5_v6 (b : Fin 8) (z : Fin 1) (u : Fin 50) (h : Fin 512) :
    idx_main_v5 (idx_main_v6 (ix4 b z u h)) = ix1 h :=
  funext fun a => by match a with | ⟨0, _⟩ => rfl

/-- Pairing time steps with label positions: the encoder projection is read with the label position dropped, -/
theorem idx_v8 (b : Fin 8) (t : Fin 200) (u : Fin 50) (h : Fin 512) :
    idx_main_v8 (ix4 b t u h) = ix4 b t (0 : Fin 1) h :=
  funext fun a => by match a with | ⟨0, _⟩ => rfl | ⟨1, _⟩ => rfl | ⟨2, _⟩ => rfl | ⟨3, _⟩ => rfl

/-- the predictor projection with the time step dropped. -/
theorem idx_v9 (b : Fin 8) (t : Fin 200) (u : Fin 50) (h : Fin 512) :
    idx_main_v9 (ix4 b t u h) = ix4 b (0 : Fin 1) u h :=
  funext fun a => by match a with | ⟨0, _⟩ => rfl | ⟨1, _⟩ => rfl | ⟨2, _⟩ => rfl | ⟨3, _⟩ => rfl

/-- The output contraction at (b, t, u, v) reads row (b, t, u) of the hidden activations along the summation variable -/
theorem lidx_v12 (b : Fin 8) (t : Fin 200) (u : Fin 50) (v : Fin 1024) (k : Fin 512) :
    lidx_main_v12 (ix4 b t u v) k = ix4 b t u k :=
  funext fun a => by match a with | ⟨0, _⟩ => rfl | ⟨1, _⟩ => rfl | ⟨2, _⟩ => rfl | ⟨3, _⟩ => rfl

/-- and column `v` of the output weight matrix. -/
theorem ridx_v12 (b : Fin 8) (t : Fin 200) (u : Fin 50) (v : Fin 1024) (k : Fin 512) :
    ridx_main_v12 (ix4 b t u v) k = ix2 k v :=
  funext fun a => by match a with | ⟨0, _⟩ => rfl | ⟨1, _⟩ => rfl

/-- The output bias, broadcast twice, is read at the output feature alone. -/
theorem idx_v13_v14 (b : Fin 8) (t : Fin 200) (u : Fin 50) (v : Fin 1024) :
    idx_main_v13 (idx_main_v14 (ix4 b t u v)) = ix1 v :=
  funext fun a => by match a with | ⟨0, _⟩ => rfl

/-! ## The stages -/

variable (x0 : FVec Ideal S8x200x1x512 .f32) (x1 : FVec Ideal S8x1x50x512 .f32) (x2 : FVec Ideal S512x512 .f32)
  (x3 : FVec Ideal S512 .f32) (x4 : FVec Ideal S512x512 .f32) (x5 : FVec Ideal S512 .f32)
  (x6 : FVec Ideal S512x1024 .f32) (x7 : FVec Ideal S1024 .f32)

/-- The encoder projection with its bias added is `enc`. -/
theorem enc_at (b : Fin 8) (t : Fin 200) (h : Fin 512) :
    val_main_v3 (F := Ideal) x0 x2 x3 (ix4 b t (0 : Fin 1) h) = enc x0 x2 x3 b t h := by
  rw [val_main_v3_apply, val_main_v0_apply, val_main_v2_apply, val_main_v1_apply, idx_v1_v2]
  simp only [lidx_v0, ridx_v0]
  rfl

/-- The predictor projection with its bias added is `prd`. -/
theorem prd_at (b : Fin 8) (u : Fin 50) (h : Fin 512) :
    val_main_v7 (F := Ideal) x1 x4 x5 (ix4 b (0 : Fin 1) u h) = prd x1 x4 x5 b u h := by
  rw [val_main_v7_apply, val_main_v4_apply, val_main_v6_apply, val_main_v5_apply, idx_v5_v6]
  simp only [lidx_v4, ridx_v4]
  rfl

/-- The hidden activation at (b, t, u, h): tanh of the two projections added. -/
theorem hidden_at (b : Fin 8) (t : Fin 200) (u : Fin 50) (h : Fin 512) :
    val_main_v11 (F := Ideal) x0 x1 x2 x3 x4 x5 (ix4 b t u h)
      = Ideal.tanh (enc x0 x2 x3 b t h + prd x1 x4 x5 b u h) := by
  rw [val_main_v11_apply, val_main_v10_apply, val_main_v8_apply, val_main_v9_apply, idx_v8, idx_v9, enc_at, prd_at]
  rfl

/-- The reference is the joint network: its result array, entry by entry, is `jointArr` of its arguments. -/
theorem ref_joint :
    val_main_v15 (F := Ideal) x0 x1 x2 x3 x4 x5 x6 x7 = jointArr x0 x1 x2 x3 x4 x5 x6 x7 := by
  funext i
  obtain ⟨b, t, u, v, rfl⟩ : ∃ (b : Fin 8) (t : Fin 200) (u : Fin 50) (v : Fin 1024), i = ix4 b t u v :=
    ⟨i 0, i 1, i 2, i 3, eq_ix4 i⟩
  rw [val_main_v15_apply, val_main_v12_apply, val_main_v14_apply, val_main_v13_apply, idx_v13_v14]
  simp only [lidx_v12, ridx_v12, hidden_at]
  rfl

end Cert.ReferenceIdeal.RefJoint

end
-- ==== Proof.lean ====
/- The kernel and its reference compute one function on the extended reals: the joint network
   (Proof/JointSpec.lean)

       out[b, t, u, v] = Σ_h tanh ((Σ_e x_enc[b, t, 0, e] · w_l[e, h] + b_l[h]) + (Σ_p x_prd[b, 0, u, p] · w_p[p, h] + b_p[h])) · w_h[h, v] + b_h[v].

   The reference spells it with three contractions and broadcasts over whole arrays (Proof/RefJoint.lean). The kernel
   computes it block by block: 40 time steps of one batch entry per grid point, the three products as matrix products
   into a zero accumulator on operands narrowed to bfloat16 — no change on extended reals —, the (time step, label)
   pairs folded into one axis for the last product (Proof/BodyJoint.lean); an entry depends on one encoder row and one
   predictor row only, so each block is the joint network of the whole arrays at its place, and the blocks tile the
   result (Proof/KernelJoint.lean). Both sides are the same sums in the same order, so no law of arithmetic is needed
   and the finiteness of the inputs is not used. The idealization changed no operation, so there is nothing to
   preserve; the three frames are the programs' runs with the results forgotten. -/
import proofs.«146606_j39874476376809_1_alg».proof.Defs
import proofs.«146606_j39874476376809_1_alg».proof.Proof.Gen.Kernel
import proofs.«146606_j39874476376809_1_alg».proof.Proof.Gen.Kernel.Skeleton
import proofs.«146606_j39874476376809_1_alg».proof.Proof.Gen.Kernel.Launch
import proofs.«146606_j39874476376809_1_alg».proof.Proof.Gen.Kernel.Points
import proofs.«146606_j39874476376809_1_alg».proof.Proof.Gen.Kernel.Frame
import proofs.«146606_j39874476376809_1_alg».proof.Proof.Gen.KernelIdeal
import proofs.«146606_j39874476376809_1_alg».proof.Proof.Gen.KernelIdeal.Skeleton
import proofs.«146606_j39874476376809_1_alg».proof.Proof.Gen.KernelIdeal.Launch
import proofs.«146606_j39874476376809_1_alg».proof.Proof.Gen.KernelIdeal.Points
import proofs.«146606_j39874476376809_1_alg».proof.Proof.Gen.KernelIdeal.Frame
import proofs.«146606_j39874476376809_1_alg».proof.Proof.Gen.ReferenceIdeal
import proofs.«146606_j39874476376809_1_alg».proof.Proof.Gen.Pre_finite_inputs
import proofs.«146606_j39874476376809_1_alg».proof.Proof.Gen.KernelIdeal.Value
import proofs.«146606_j39874476376809_1_alg».proof.Proof.Gen.ReferenceIdeal.Run
import proofs.«146606_j39874476376809_1_alg».proof.Proof.Gen.ReferenceIdeal.Read
import proofs.«146606_j39874476376809_1_alg».proof.Proof.KernelJoint
import proofs.«146606_j39874476376809_1_alg».proof.Proof.RefJoint
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the arguments, the kernel's result array ends at the joint network of its arguments
    (the kernel's run, read) and the reference's at the joint network of its own (the reference's run, read): one array. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v15_eq, Cert.ReferenceIdeal.RefJoint.ref_joint, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
